-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024x1024x1 : S_.BroadcastsInDim S1x1024x1024x1 (![] : Fin 0 → Fin S1x1024x1024x1.rank)
  reducesTo_S1x1024x1024x1_S_d0_1_2_3 : S1x1024x1024x1.ReducesTo [0, 1, 2, 3] S_

variable [Facts]

def fn {F : FTy → Type} [FloatOps F] (main_arg0 : FVec F S16x4096x1024 .f32) (main_arg1 : FVec F S16x1024 .f32) (main_arg2 : FVec F S1x1024x1024x1 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1x1024x1024x1 .f32 := Host.absf main_arg2
  let main_cst_2 : FVec F S_ .f32 := constant S_ .f32 0x7F800000#32
  let main_v10 : FVec F S1x1024x1024x1 .f32 := broadcastInDim S1x1024x1024x1 ![] bcast_S_S1x1024x1024x1 main_cst_2
  let main_v11 : IVec S1x1024x1024x1 1 := cmpf .olt main_v9 main_v10
  let main_c_3 : IVec S_ 1 := constantI S_ 1 1#1
  let main_v12 : IVec S_ 1 := (fun x v => Host.reduce IntOp.andi x v reducesTo_S1x1024x1024x1_S_d0_1_2_3 h_S_) main_v11 main_c_3
  let main_v13 : IVec S_ 1 := andi main_v8 main_v12
  main_v13
-- ==== Kernel.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S1024x1024 : Shape := ⟨2, ![1024, 1024]⟩
abbrev S16x1x1024 : Shape := ⟨3, ![16, 1, 1024]⟩
abbrev S16x1024x4096 : Shape := ⟨3, ![16, 1024, 4096]⟩
abbrev S1x1x1024 : Shape := ⟨3, ![1, 1, 1024]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S1x1024x1024x1, .f32⟩
  | .hbm, ⟨3, _⟩ => ⟨S1024x1024, .f32⟩
  | .hbm, ⟨4, _⟩ => ⟨S16x1x1024, .f32⟩
  | .hbm, ⟨5, _⟩ => ⟨S16x1024x4096, .f32⟩
  | .hbm, ⟨6, _⟩ => ⟨S16x1024x4096, .f32⟩
  | .hbm, ⟨7, _⟩ => ⟨S16x4096x1024, .f32⟩
  | .local _ .vmem, ⟨0, _⟩ => ⟨S1024x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x1024x1024x1_S1024x1024 : S1x1024x1024x1.ShapeCasts S1024x1024
  bcast_S16x1024_S16x1x1024_0_2 : S16x1024.BroadcastsInDim S16x1x1024 (![0, 2] : Fin 2 → Fin S16x1x1024.rank)
  shapeCasts_S16x4096x1024_S16x1024x4096 : S16x4096x1024.ShapeCasts S16x1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S16x1024x4096_S16x4096x1024 : S16x1024x4096.ShapeCasts S16x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x4096.size a
  hwx0_2 : ∀ i : grid0.Coords, EltTy.bits .f32 = 32 ∨ (Rect.block (s := S16x1024x4096) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x4096.size a
  hwx0_3 : ∀ i : grid0.Coords, EltTy.bits .f32 = 32 ∨ (Rect.block (s := S16x1024x4096) S1x1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x1024 : Shape := ⟨2, ![16, 1024]⟩
abbrev S1x1024x1024x1 : Shape := ⟨4, ![1, 1024, 1024, 1]⟩
abbrev S1x1024x1024 : Shape := ⟨3, ![1, 1024, 1024]⟩
abbrev S_ : Shape := ⟨0, ![]⟩
abbrev S16x1x1024 : Shape := ⟨3, ![16, 1, 1024]⟩
abbrev S16x1024x1024 : Shape := ⟨3, ![16, 1024, 1024]⟩
abbrev S16x1024x1 : Shape := ⟨3, ![16, 1024, 1]⟩
abbrev S16x1024x4096 : Shape := ⟨3, ![16, 1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S1x1024x1024x1, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S16x1x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S_, .f32⟩
  | .hbm, ⟨16, _⟩ => ⟨S16x1024x1, .f32⟩
  | .hbm, ⟨17, _⟩ => ⟨S16x1024x1, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1024x4096, .f32⟩
  | .hbm, ⟨22, _⟩ => ⟨S16x1024x4096, .f32⟩
  | .hbm, ⟨23, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S1x1024x1024x1_S1x1024x1024 : S1x1024x1024x1.ShapeCasts S1x1024x1024
  bcast_S_S1x1024x1024 : S_.BroadcastsInDim S1x1024x1024 (![] : Fin 0 → Fin S1x1024x1024.rank)
  bcast_S16x1024_S16x1x1024_0_2 : S16x1024.BroadcastsInDim S16x1x1024 (![0, 2] : Fin 2 → Fin S16x1x1024.rank)
  bcast_S1x1024x1024_S16x1024x1024_0_1_2 : S1x1024x1024.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x1024_0_1_2 : S16x1024x1.BroadcastsInDim S16x1024x1024 (![0, 1, 2] : Fin 3 → Fin S16x1024x1024.rank)
  shapeCasts_S16x4096x1024_S16x1024x4096 : S16x4096x1024.ShapeCasts S16x1024x4096
  shapeCasts_S16x1024x4096_S16x4096x1024 : S16x1024x4096.ShapeCasts S16x4096x1024
  dot_S16x1024x1024_S16x1024x4096_S16x1024x4096_2_1_1_2_0_0_wf : DotDims.WF S16x1024x1024 S16x1024x4096 S16x1024x4096 [2] [1] [1] [2] [0] [0]

variable [Facts₀]

def dot_S16x1024x1024_S16x1024x4096_S16x1024x4096_2_1_1_2_0_0 : DotDims S16x1024x1024 S16x1024x4096 S16x1024x4096 where
  lhsContracting := [2]
  rhsContracting := [1]
  lhsNonContracting := [1]
  rhsNonContracting := [2]
  lhsBatch := [0]
  rhsBatch := [0]
  wf := dot_S16x1024x1024_S16x1024x4096_S16x1024x4096_2_1_1_2_0_0_wf

class Facts : Prop extends Facts₀ where

variable [Facts]
-- ==== Proof.Pieces.lean ====
/-
  What one run of the kernel body leaves, as values.

  The body has two parts.  At the first position tile of a sample it recomputes the cached weight from the weight
  block and the sample's style row (the first payload) and stores it; at every tile it then multiplies the cached
  weight with the signal tile (the second payload) and stores the product.  So, writing `P₁` and `P₂` for the two
  payloads: at a first tile the cache ends at `P₁ w s` and the output tile at `P₂ e (P₁ w s)`; at any other tile the
  cache keeps what it held, `x`, and the output tile ends at `P₂ e x`.  Every load and store goes through the whole
  staging buffer, so each buffer's contents after the body are exactly the one stored payload.
-/
import proofs.«129304_j39444979646803_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ModConv.Frame

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a first tile the cache ends at the first payload of the weight block and the style row. -/
theorem cache_first (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (hc0 : cond0_0 i)
    (x0 : Vec F S1024x1024 .f32) (x1 : Vec F S1x1x1024 .f32) (x2 : Vec F S1x1024x1024 .f32) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, View.ld_unit_zero (S := S1024x1024) hz2,
    View.ld_unit_zero (S := S1x1x1024) hz3]

/-- At a first tile the output tile ends at the second payload of the signal tile and the fresh cache. -/
theorem out_first (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (hc0 : cond0_0 i)
    (x0 : Vec F S1024x1024 .f32) (x1 : Vec F S1x1x1024 .f32) (x2 : Vec F S1x1024x1024 .f32) :
    out0_A_3 c i arg2 harg2 arg3 harg3 arg4 harg4 arg5 harg5 arg6 harg6 hc0 x0 x1 x2 = k0_pay2 x2 (k0_pay1 x0 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S1024x1024) _ hz2]
  simp only [View.readAt_eq_ld, harg2.read_unread, harg3.read_unread, harg4.read_unread,
    View.ld_unit_zero (S := S1024x1024) hz2, View.ld_unit_zero (S := S1x1x1024) hz3,
    View.ld_unit_zero (S := S1x1024x1024) hz3]

/-- At any other tile the output tile ends at the second payload of the signal tile and the cache as found. -/
theorem out_later (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1024x1024 .bf16) (harg6 : arg6.IsWhole) (hc0 : ¬cond0_0 i)
    (x0 : Vec F S1024x1024 .f32) (x1 : Vec F S1x1x1024 .f32) (x2 : Vec F S1x1024x1024 .f32) (xs0 : Vec F S1024x1024 .bf16) :
    out0_B_3 c i arg2 harg2 arg3 harg3 arg4 harg4 arg5 harg5 arg6 harg6 hc0 x0 x1 x2 xs0 = k0_pay2 x2 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg4.read_unread, harg6.read_unread, View.ld_unit_zero (S := S1024x1024) hz2,
    View.ld_unit_zero (S := S1x1024x1024) hz3]

end Cert.ModConv.Frame

end
-- ==== Proof.Spec.lean ====
/-
  The function both programs compute, over the extended reals.

  A weight matrix `w` (1024 output features by 1024 input features) is modulated, for one sample, by that sample's
  style vector `s`: `wmod o i = (1/32 · w o i) · s i` (the factor is the word of 2⁻⁵, the same on both sides).  Each
  output row is then demodulated by the reciprocal square root of its sum of squares plus a small constant:
  `wn o i = wmod o i · rsqrt (∑ k, wmod o k ² + ε)`.  The result is the batch of matrix products of the demodulated
  weights with the signal, `conv b o l = ∑ i, wn_b o i · A b i l`, where `A` is the signal already viewed as
  16 × 1024 × 4096 (a row-major recast both programs apply to the same argument, before; and another they both
  apply to the result, after).

  Nothing here needs finiteness: both programs perform these operations in this order, so no sum is regrouped
  and no factor moved.
-/
import Idealize.ShloMosaic.PureOps.Ideal
import Idealize.ShloMosaic.Lib.ValueIdx

noncomputable section

namespace Cert.ModConv

open Idealize.ShloMosaic Idealize.ShloMosaic.ValueIdx

/-- One sample's modulated weight: the scaled weight times the sample's style entry of the input feature. -/
def wmod (w : Fin 1024 → Fin 1024 → EReal) (s : Fin 1024 → EReal) (o i : Fin 1024) : EReal :=
  (Ideal.ofBits .f32 0x3D000000#32 * w o i) * s i

/-- The sum of squares of an output row of the modulated weight. -/
def sumsq (w : Fin 1024 → Fin 1024 → EReal) (s : Fin 1024 → EReal) (o : Fin 1024) : EReal :=
  ∑ k : Fin 1024, wmod w s o k * wmod w s o k

/-- The demodulated weight: each row of the modulated weight times the reciprocal root of its sum of squares
    plus ε. -/
def wn (w : Fin 1024 → Fin 1024 → EReal) (s : Fin 1024 → EReal) (o i : Fin 1024) : EReal :=
  wmod w s o i * Ideal.rsqrt (sumsq w s o + Ideal.ofBits .f32 0x322BCC77#32)

/-- The weight argument (1 × 1024 × 1024 × 1) as a matrix. -/
def wmat (W : (⟨4, ![1, 1024, 1024, 1]⟩ : Shape).Idx → EReal) (o i : Fin 1024) : EReal :=
  W (ix4 (0 : Fin 1) o i (0 : Fin 1))

/-- Sample `b`'s row of the style argument (16 × 1024). -/
def srow (y : (⟨2, ![16, 1024]⟩ : Shape).Idx → EReal) (b : Fin 16) (i : Fin 1024) : EReal :=
  y (ix2 b i)

/-- The batch of products at explicit coordinates: sample `b`, output feature `o`, position `l`. -/
def convAt (W : (⟨4, ![1, 1024, 1024, 1]⟩ : Shape).Idx → EReal) (y : (⟨2, ![16, 1024]⟩ : Shape).Idx → EReal)
    (A : (⟨3, ![16, 1024, 4096]⟩ : Shape).Idx → EReal) (b : Fin 16) (o : Fin 1024) (l : Fin 4096) : EReal :=
  ∑ k : Fin 1024, wn (wmat W) (srow y b) o k * A (ix3 b k l)

/-- The same as an array of shape 16 × 1024 × 4096. -/
def conv (W : (⟨4, ![1, 1024, 1024, 1]⟩ : Shape).Idx → EReal) (y : (⟨2, ![16, 1024]⟩ : Shape).Idx → EReal)
    (A : (⟨3, ![16, 1024, 4096]⟩ : Shape).Idx → EReal) : (⟨3, ![16, 1024, 4096]⟩ : Shape).Idx → EReal :=
  fun j => convAt W y A (j 0) (j 1) (j 2)

theorem conv_ix3 (W : (⟨4, ![1, 1024, 1024, 1]⟩ : Shape).Idx → EReal) (y : (⟨2, ![16, 1024]⟩ : Shape).Idx → EReal)
    (A : (⟨3, ![16, 1024, 4096]⟩ : Shape).Idx → EReal) (b : Fin 16) (o : Fin 1024) (l : Fin 4096) :
    conv W y A (ix3 b o l) = convAt W y A b o l := rfl

end Cert.ModConv

end
-- ==== Proof.Blocks.lean ====
/-
  The arrays the kernel's region is entered with, and the tiles its windows cut out of them.

  Before the region the host recasts the weight argument (1 × 1024 × 1024 × 1) as a 1024 × 1024 matrix, lays the
  style argument (16 × 1024) out as 16 × 1 × 1024, and recasts the signal argument row-major as 16 × 1024 × 4096.
  The grid has 64 points; point `t` works on sample `t / 4` and position tile `t % 4`.  Its windows are: the whole
  weight matrix; row `t / 4` of the style array; and, of the recast signal and of the result alike, the tile
  (sample `t / 4`, all 1024 features, positions `1024 · (t % 4)` to `1024 · (t % 4) + 1023`).
-/
import proofs.«129304_j39444979646803_2_alg».proof.Proof.Gen.KernelIdeal.Frame
import proofs.«129304_j39444979646803_2_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ModConv.Frame

open Cert.KernelIdeal Cert.KernelIdeal.Gen

variable {F : FTy → Type} [FloatOps F]
variable (m : (ℓ : Loc nD τ sig) → Buf (Elt F) ℓ)

/-! ## The arrays at the region's entry -/

/-- The weight matrix the region finds: the weight argument recast. -/
theorem entry_weight (c : Dev nD) :
    V m c main_v0 = shapeCast S1024x1024 (m ((c : Thread nD τ).loc main_arg2)) shapeCasts_S1x1024x1024x1_S1024x1024 := by
  show StableHlo.after hostOps0 (fun b => m (c, b)) (Proc.devRef .tc main_v0) = _
  after_results <;> rfl

/-- The style array the region finds: the style argument with a unit middle axis. -/
theorem entry_style (c : Dev nD) :
    V m c main_v1 = broadcastInDim S16x1x1024 ![0, 2] bcast_S16x1024_S16x1x1024_0_2 (m ((c : Thread nD τ).loc main_arg1)) := by
  show StableHlo.after hostOps0 (fun b => m (c, b)) (Proc.devRef .tc main_v1) = _
  after_results <;> rfl

/-- The signal array the region finds: the signal argument recast row-major as 16 × 1024 × 4096. -/
theorem entry_signal (c : Dev nD) :
    V m c main_v2 = shapeCast S16x1024x4096 (m ((c : Thread nD τ).loc main_arg0)) shapeCasts_S16x4096x1024_S16x1024x4096 := by
  show StableHlo.after hostOps0 (fun b => m (c, b)) (Proc.devRef .tc main_v2) = _
  after_results <;> rfl

/-- An entry of the weight matrix is the weight argument's entry of the same output and input feature. -/
theorem entry_weight_apply (c : Dev nD) (o i : Fin 1024) :
    V m c main_v0 (ix2 o i) = m ((c : Thread nD τ).loc main_arg2) (ix4 (0 : Fin 1) o i (0 : Fin 1)) := by
  rw [entry_weight]
  refine shapeCast_apply _ shapeCasts_S1x1024x1024x1_S1024x1024 (ix2 o i) (ix4 (0 : Fin 1) o i (0 : Fin 1)) ?_
  rewrite [Shape.rowMajor_val_four, Shape.rowMajor_val_two]
  show ((0 * 1024 + o.val) * 1024 + i.val) * 1 + 0 = o.val * 1024 + i.val
  omega

/-- An entry of the laid-out style array is the style argument's entry of the same sample and feature. -/
theorem entry_style_apply (c : Dev nD) (b : Fin 16) (i : Fin 1024) :
    V m c main_v1 (ix3 b (0 : Fin 1) i) = m ((c : Thread nD τ).loc main_arg1) (ix2 b i) := by
  rw [entry_style]
  refine broadcastInDim_apply _ bcast_S16x1024_S16x1x1024_0_2 _ (ix3 b (0 : Fin 1) i) (ix2 b i) (fun a => ?_)
  match a with
  | ⟨0, _⟩ => show b.val = if (16 : Nat) = 1 then 0 else b.val; rw [if_neg (by decide)]
  | ⟨1, _⟩ => show i.val = if (1024 : Nat) = 1 then 0 else i.val; rw [if_neg (by decide)]

/-! ## The windows' tiles -/

/-- The windows' block indices at every grid point, decided over the 64 points: the weight window does not move;
    the style window follows the sample; the signal and result windows follow the sample and the position tile. -/
theorem tile_index : ∀ t : Fin cfg0.N,
    win0_0.index t (0 : Fin 2) = 0 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = t.val % 4 :=
  (by decide +kernel : ∀ t : Fin grid0.N, _)

/-- The sample a grid point works on. -/
def sample (t : Fin cfg0.N) : Fin 16 := ⟨t.val / 4, by have h : t.val < 64 := lt_of_lt_of_eq t.isLt (show cfg0.N = 64 from N_0); omega⟩

/-- A position inside a grid point's tile, as a position of the whole signal. -/
def position (t : Fin cfg0.N) (l : Fin 1024) : Fin 4096 := ⟨t.val % 4 * 1024 + l.val, by have := l.isLt; omega⟩

/-- The weight window's tile is the whole weight matrix. -/
theorem weight_tile (c : Dev nD) (t : Fin cfg0.N) (y : S1024x1024.Idx) :
    (iblk m c 0 t : Vec F S1024x1024 .f32) y = V m c main_v0 y := by
  obtain ⟨e0, e1, -⟩ := tile_index t
  unfold iblk
  rw [View.read_apply]
  show V m c main_v0 _ = V m c main_v0 y
  refine congrArg (V m c main_v0) (funext fun a => Fin.ext ?_)
  match a with
  | ⟨0, _⟩ => show win0_0.index t (0 : Fin 2) * 1024 + 1 * (y 0).val = (y 0).val; rw [e0]; omega
  | ⟨1, _⟩ => show win0_0.index t (1 : Fin 2) * 1024 + 1 * (y 1).val = (y 1).val; rw [e1]; omega

/-- The style window's tile is the row of the point's sample. -/
theorem style_tile (c : Dev nD) (t : Fin cfg0.N) (i : Fin 1024) :
    (iblk m c 1 t : Vec F S1x1x1024 .f32) (ix3 (0 : Fin 1) (0 : Fin 1) i) = V m c main_v1 (ix3 (sample t) (0 : Fin 1) i) := by
  obtain ⟨-, -, e0, e1, e2, -⟩ := tile_index t
  unfold iblk
  rw [View.read_apply]
  show V m c main_v1 _ = V m c main_v1 _
  refine congrArg (V m c main_v1) (funext fun a => Fin.ext ?_)
  match a with
  | ⟨0, _⟩ => show win0_1.index t (0 : Fin 3) * 1 + 1 * 0 = t.val / 4; rw [e0]; omega
  | ⟨1, _⟩ => show win0_1.index t (1 : Fin 3) * 1 + 1 * 0 = 0; rw [e1]
  | ⟨2, _⟩ => show win0_1.index t (2 : Fin 3) * 1024 + 1 * i.val = i.val; rw [e2]; omega

/-- The signal window's tile holds the point's sample at the point's positions. -/
theorem signal_tile (c : Dev nD) (t : Fin cfg0.N) (k l : Fin 1024) :
    (iblk m c 2 t : Vec F S1x1024x1024 .f32) (ix3 (0 : Fin 1) k l) = V m c main_v2 (ix3 (sample t) k (position t l)) := by
  obtain ⟨-, -, -, -, -, e0, e1, e2, -⟩ := tile_index t
  unfold iblk
  rw [View.read_apply]
  show V m c main_v2 _ = V m c main_v2 _
  refine congrArg (V m c main_v2) (funext fun a => Fin.ext ?_)
  match a with
  | ⟨0, _⟩ => show win0_2.index t (0 : Fin 3) * 1 + 1 * 0 = t.val / 4; rw [e0]; omega
  | ⟨1, _⟩ => show win0_2.index t (1 : Fin 3) * 1024 + 1 * k.val = k.val; rw [e1]; omega
  | ⟨2, _⟩ => show win0_2.index t (2 : Fin 3) * 1024 + 1 * l.val = t.val % 4 * 1024 + l.val; rw [e2]; omega

/-- Where an entry of the result window's tile sits in the result array. -/
theorem result_tile_emb (t : Fin cfg0.N) (y : S1x1024x1024.Idx) :
    ((cfg0.win 3).blk t).view.emb y = (ix3 (sample t) (y 1) (position t (y 2)) : S16x1024x4096.Idx) := by
  obtain ⟨-, -, -, -, -, -, -, -, e0, e1, e2⟩ := tile_index t
  have h0 : (y 0).val = 0 := by have h : (y 0).val < 1 := (y 0).isLt; omega
  funext a
  apply Fin.ext
  match a with
  | ⟨0, _⟩ => show win0_3.index t (0 : Fin 3) * 1 + 1 * (y 0).val = t.val / 4; rw [e0, h0]; omega
  | ⟨1, _⟩ => show win0_3.index t (1 : Fin 3) * 1024 + 1 * (y 1).val = (y 1).val; rw [e1]; omega
  | ⟨2, _⟩ => show win0_3.index t (2 : Fin 3) * 1024 + 1 * (y 2).val = t.val % 4 * 1024 + (y 2).val; rw [e2]; omega

end Cert.ModConv.Frame

end
-- ==== Proof.Payload.lean ====
/-
  The kernel body's two computed values, read at an index.

  The first value is formed from a 1024 × 1024 weight block `x0` and a style row `x1` (stored 1 × 1 × 1024): the
  weight is scaled by the word of 2⁻⁵ and multiplied, column by column, by the style row; every row of the result is
  then multiplied by the reciprocal square root of its own sum of squares plus a small constant.  At (o, i) this is
  the demodulated weight `wn` of the specification, taken at the block and the row.

  The second value is the matrix product of a cached 1024 × 1024 matrix `s` with a signal block `x2` (stored
  1 × 1024 × 1024), accumulated from zero: at (0, o, l) it is `∑ k, s o k · x2 0 k l`.

  Every operation between is either pointwise (it commutes with reading at an index by definition), a change of view
  that keeps the row-major position, a broadcast that repeats a row or a column, the sum along the second axis, or the
  contraction of the one shared axis; one lemma below reads each of the last four kinds at explicit coordinates, and
  the two theorems chain them.  Nothing is regrouped: the sums here are the very sums of the specification.
-/
import proofs.«129304_j39444979646803_2_alg».proof.Proof.Gen.KernelIdeal.Skeleton
import proofs.«129304_j39444979646803_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ModConv.Body

open Cert.KernelIdeal Cert.KernelIdeal.Gen Idealize.ShloMosaic Idealize.ShloMosaic.ValueIdx

/-! ## Changes of view and broadcasts at explicit coordinates -/

section Layout
variable {α : Type}

/-- A 1 × 1 × 1024 row viewed as 1 × 1024 keeps each lane: both positions are the lane's number. -/
theorem cast_row (v : S1x1x1024.Idx → α) (h : S1x1x1024.ShapeCasts S1x1024) (i : Fin 1024) :
    shapeCast S1x1024 v h (ix2 (0 : Fin 1) i) = v (ix3 (0 : Fin 1) (0 : Fin 1) i) :=
  shapeCast_apply v h _ _ (by
    rewrite [Shape.rowMajor_val_three, Shape.rowMajor_val_two]
    show (0 * 1 + 0) * 1024 + i.val = 0 * 1024 + i.val
    omega)

/-- A 1 × 1024 row repeated down 1024 rows reads, at (o, i), the row's lane i. -/
theorem bcast_row (v : S1x1024.Idx → α) (h : S1x1024.Broadcasts S1024x1024) (o i : Fin 1024) :
    broadcastTo S1024x1024 v h (ix2 o i) = v (ix2 (0 : Fin 1) i) :=
  broadcastTo_apply v h _ _ (fun a => match a with
    | ⟨0, _⟩ => rfl
    | ⟨1, _⟩ => rfl)

/-- A vector of 1024 entries viewed as a 1024 × 1 column keeps each entry. -/
theorem cast_col (v : S1024.Idx → α) (h : S1024.ShapeCasts S1024x1) (o : Fin 1024) :
    shapeCast S1024x1 v h (ix2 o (0 : Fin 1)) = v (ix1 o) :=
  shapeCast_apply v h _ _ (by
    rewrite [Shape.rowMajor_val_one, Shape.rowMajor_val_two]
    show o.val = o.val * 1 + 0
    omega)

/-- A 1024 × 1 column repeated across 1024 columns reads, at (o, i), the column's entry o. -/
theorem bcast_col (v : S1024x1.Idx → α) (h : S1024x1.Broadcasts S1024x1024) (o i : Fin 1024) :
    broadcastTo S1024x1024 v h (ix2 o i) = v (ix2 o (0 : Fin 1)) :=
  broadcastTo_apply v h _ _ (fun a => match a with
    | ⟨0, _⟩ => rfl
    | ⟨1, _⟩ => rfl)

/-- A 1 × 1024 × 1024 block viewed as 1024 × 1024 reads (0, k, l) at (k, l). -/
theorem cast_drop (v : S1x1024x1024.Idx → α) (h : S1x1024x1024.ShapeCasts S1024x1024) (k l : Fin 1024) :
    shapeCast S1024x1024 v h (ix2 k l) = v (ix3 (0 : Fin 1) k l) :=
  shapeCast_apply v h _ _ (by
    rewrite [Shape.rowMajor_val_three, Shape.rowMajor_val_two]
    show (0 * 1024 + k.val) * 1024 + l.val = k.val * 1024 + l.val
    omega)

/-- A 1024 × 1024 matrix viewed as a 1 × 1024 × 1024 block reads (o, l) at (0, o, l). -/
theorem cast_add (v : S1024x1024.Idx → α) (h : S1024x1024.ShapeCasts S1x1024x1024) (o l : Fin 1024) :
    shapeCast S1x1024x1024 v h (ix3 (0 : Fin 1) o l) = v (ix2 o l) :=
  shapeCast_apply v h _ _ (by
    rewrite [Shape.rowMajor_val_two, Shape.rowMajor_val_three]
    show o.val * 1024 + l.val = (0 * 1024 + o.val) * 1024 + l.val
    omega)

end Layout

/-! ## The row sum and the contraction at explicit coordinates -/

/-- The sum along the second axis of a 1024 × 1024 array, at row o, is the sum over the columns of row o: the index
    the reduction inserts the column into has coordinates (o, k). -/
theorem rowsum_apply (v : FVec Ideal S1024x1024 .f32) (h : S1024x1024.Reduces [1] S1024) (hφ : FKind.Formats .f32)
    (hacc : (0x00000000#32 : BitVec 32) = FKind.add.neutral .f32 hφ) (o : Fin 1024) :
    multiReduction (F := Ideal) .add [1] S1024 v 0x00000000#32 h hφ hacc (ix1 o) = ∑ k : Fin 1024, v (ix2 o k) := by
  refine (Ideal.multiReduction_add_single v _ h hφ hacc (ix1 o)).trans ?_
  refine Finset.sum_congr rfl fun k _ => congrArg v (funext fun a => ?_)
  match a with
  | ⟨0, _⟩ => exact Fin.ext rfl
  | ⟨1, _⟩ => exact Fin.ext rfl

theorem lhs_row (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_col (j : S1024x1024.Idx) (q : dot_S1024x1024_S1024x1024_S1024x1024_1_0_0_1_n_n.contr.Idx) : (dot_S1024x1024_S1024x1024_S1024x1024_1_0_0_1_n_n.lhsIdx j q 1).val = (q ⟨0, by decide⟩).val :=
  dot_S1024x1024_S1024x1024_S1024x1024_1_0_0_1_n_n.lhsIdx_val_of_single rfl j q

theorem rhs_row (j : S1024x1024.Idx) (q : dot_S1024x1024_S1024x1024_S1024x1024_1_0_0_1_n_n.contr.Idx) : (dot_S1024x1024_S1024x1024_S1024x1024_1_0_0_1_n_n.rhsIdx j q 0).val = (q ⟨0, by decide⟩).val :=
  dot_S1024x1024_S1024x1024_S1024x1024_1_0_0_1_n_n.rhsIdx_val_of_single rfl j q

theorem rhs_col (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of two 1024 × 1024 matrices accumulated from zero, at (o, l): the sum over the shared axis of the
    left operand's row o times the right operand's column l, the contraction index re-indexed by its one
    coordinate. -/
theorem mm_apply (a b : FVec Ideal S1024x1024 .bf16) (o l : Fin 1024) :
    matmul (F := Ideal) dot_S1024x1024_S1024x1024_S1024x1024_1_0_0_1_n_n none a b (constant S1024x1024 .f32 0x00000000#32) (ix2 o l)
      = ∑ k : Fin 1024, a (ix2 o k) * b (ix2 k l) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 o l) ((contrEquiv1 dot_S1024x1024_S1024x1024_S1024x1024_1_0_0_1_n_n 1024 rfl rfl).symm k) = ix2 o k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 o l) ((contrEquiv1 dot_S1024x1024_S1024x1024_S1024x1024_1_0_0_1_n_n 1024 rfl rfl).symm k) = ix2 k l := funext fun a => Fin.ext (by
    match a with
    | ⟨0, _⟩ => exact (rhs_row _ _).trans hk
    | ⟨1, _⟩ => exact rhs_col _ _)
  rw [el, er]

/-! ## The first value -/

/-- The scaled weight times the style row, at (o, i): the word of 2⁻⁵ times the weight's entry, times the row's
    lane i.  The weight's view is to its own shape; the row is viewed 1 × 1024 and repeated down the rows. -/
theorem mod_apply (x0 : Vec Ideal S1024x1024 .f32) (x1 : Vec Ideal S1x1x1024 .f32)
    (h1 : S1024x1024.ShapeCasts S1024x1024) (h2 : S1x1x1024.ShapeCasts S1x1024) (h3 : S1x1024.Broadcasts S1024x1024)
    (o i : Fin 1024) :
    mulf (F := Ideal) (mulf (broadcast S1024x1024 (Scalar.ofBits .f32 0x3D000000#32)) (shapeCast S1024x1024 x0 h1))
        (broadcastTo S1024x1024 (shapeCast S1x1024 x1 h2) h3) (ix2 o i)
      = (Ideal.ofBits .f32 0x3D000000#32 * x0 (ix2 o i)) * x1 (ix3 (0 : Fin 1) (0 : Fin 1) i) := by
  show (Ideal.ofBits .f32 0x3D000000#32 * shapeCast S1024x1024 x0 h1 (ix2 o i))
      * broadcastTo S1024x1024 (shapeCast S1x1024 x1 h2) h3 (ix2 o i) = _
  rw [shapeCast_self, bcast_row, cast_row]

/-- A 1024 × 1024 array `V` whose every row is multiplied by the reciprocal square root of the row's sum of squares
    plus the small constant: at (o, i) it is `V o i · rsqrt (∑ k, V o k · V o k + ε)`.  The row sums are viewed as
    a column, the constant added and the root taken entry by entry, and the column repeated across the row; the
    narrowing to the shorter float format is the identity on the extended reals, and the last view is to the same
    shape. -/
theorem demod_apply (V : FVec Ideal S1024x1024 .f32) (hr : S1024x1024.Reduces [1] S1024) (hφ : FKind.Formats .f32)
    (hacc : (0x00000000#32 : BitVec 32) = FKind.add.neutral .f32 hφ) (hc : S1024.ShapeCasts S1024x1)
    (hb : S1024x1.Broadcasts S1024x1024) (hbits : FTy.bits .bf16 < FTy.bits .f32)
    (hs : S1024x1024.ShapeCasts S1024x1024) (o i : Fin 1024) :
    shapeCast S1024x1024
        (truncf (F := Ideal) .bf16
          (mulf V (broadcastTo S1024x1024
            (rsqrt (addf (shapeCast S1024x1 (multiReduction .add [1] S1024 (mulf V V) 0x00000000#32 hr hφ hacc) hc)
              (broadcast S1024x1 (Scalar.ofBits .f32 0x322BCC77#32)))) hb)) hbits) hs (ix2 o i)
      = V (ix2 o i) * Ideal.rsqrt ((∑ k : Fin 1024, V (ix2 o k) * V (ix2 o k)) + Ideal.ofBits .f32 0x322BCC77#32) := by
  rw [shapeCast_self]
  show V (ix2 o i) * broadcastTo S1024x1024
      (rsqrt (addf (shapeCast S1024x1 (multiReduction .add [1] S1024 (mulf V V) 0x00000000#32 hr hφ hacc) hc)
        (broadcast S1024x1 (Scalar.ofBits .f32 0x322BCC77#32)))) hb (ix2 o i) = _
  rw [bcast_col]
  show V (ix2 o i) * Ideal.rsqrt
      (shapeCast S1024x1 (multiReduction .add [1] S1024 (mulf V V) 0x00000000#32 hr hφ hacc) hc (ix2 o (0 : Fin 1))
        + Ideal.ofBits .f32 0x322BCC77#32) = _
  rw [cast_col, rowsum_apply]
  rfl

/-- The first payload is the demodulated weight of the loaded weight block and style row. -/
theorem pay1_apply (x0 : Vec Ideal S1024x1024 .f32) (x1 : Vec Ideal S1x1x1024 .f32) (o i : Fin 1024) :
    k0_pay1 (F := Ideal) x0 x1 (ix2 o i)
      = Cert.ModConv.wn (fun o i => x0 (ix2 o i)) (fun i => x1 (ix3 (0 : Fin 1) (0 : Fin 1) i)) o i := by
  unfold k0_pay1
  refine (demod_apply _ _ _ _ _ _ _ _ o i).trans ?_
  simp only [mod_apply]
  rfl

/-! ## The second value -/

/-- The second payload is the product of the cached weight with the signal block. -/
theorem pay2_apply (x2 : Vec Ideal S1x1024x1024 .f32) (s : Vec Ideal S1024x1024 .bf16) (o l : Fin 1024) :
    k0_pay2 (F := Ideal) x2 s (ix3 (0 : Fin 1) o l) = ∑ k : Fin 1024, s (ix2 o k) * x2 (ix3 (0 : Fin 1) k l) := by
  unfold k0_pay2
  refine (cast_add _ _ o l).trans ?_
  refine (mm_apply _ _ o l).trans ?_
  refine Finset.sum_congr rfl fun k _ => ?_
  exact congrArg (fun t => s (ix2 o k) * t) (cast_drop x2 _ k l)

end Cert.ModConv.Body

end
-- ==== Proof.Invariant.lean ====
/-
  What the cache and the output tile hold after each grid point, over the extended reals.

  Point `t` works on sample `t / 4`.  The cache is recomputed at the first tile of a sample (`t % 4 = 0`) and kept at
  the other three, so by induction on the point it holds, after point `t`, the demodulated weight of sample `t / 4`:
  at a first tile by the first payload read at an index (the weight window's tile is the whole weight matrix, the
  style window's tile is the sample's row), at a later tile because `(t - 1) / 4 = t / 4`.  The output tile after
  point `t` is then the product of that demodulated weight with the signal tile, whose entries are the recast
  signal's at sample `t / 4` and positions `1024 · (t % 4) + l`: the specification's entries under the tile.
-/
import proofs.«129304_j39444979646803_2_alg».proof.Proof.Pieces
import proofs.«129304_j39444979646803_2_alg».proof.Proof.Blocks
import proofs.«129304_j39444979646803_2_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.ModConv.Frame

open Cert.KernelIdeal Cert.KernelIdeal.Gen Cert.ModConv

variable (m : (ℓ : Loc nD τ sig) → Buf (Elt Ideal) ℓ)

/-- The demodulated weight of sample `b`, as a 1024 × 1024 array: what the cache holds while the grid is on `b`. -/
def demod (c : Dev nD) (b : Fin 16) : S1024x1024.Idx → EReal := fun idx =>
  wn (wmat (m ((c : Thread nD τ).loc main_arg2))) (srow (m ((c : Thread nD τ).loc main_arg1)) b) (idx 0) (idx 1)

/-- The first payload of a point's weight and style tiles is the demodulated weight of the point's sample. -/
theorem fresh_cache (c : Dev nD) (t : Fin cfg0.N) :
    k0_pay1 (F := Ideal) (iblk m c 0 t) (iblk m c 1 t) = demod m c (sample t) := by
  funext idx
  obtain ⟨o, i, rfl⟩ : ∃ (o i : Fin 1024), idx = ix2 o i := ⟨idx 0, idx 1, eq_ix2 idx⟩
  refine (Body.pay1_apply (iblk m c 0 t) (iblk m c 1 t) o i).trans ?_
  have hw : (fun (o i : Fin 1024) => (iblk m c 0 t : Vec Ideal S1024x1024 .f32) (ix2 o i))
      = wmat (m ((c : Thread nD τ).loc main_arg2)) :=
    funext fun o => funext fun i => (weight_tile m c t (ix2 o i)).trans (entry_weight_apply m c o i)
  have hs : (fun (i : Fin 1024) => (iblk m c 1 t : Vec Ideal S1x1x1024 .f32) (ix3 (0 : Fin 1) (0 : Fin 1) i))
      = srow (m ((c : Thread nD τ).loc main_arg1)) (sample t) :=
    funext fun i => (style_tile m c t i).trans (entry_style_apply m c (sample t) i)
  exact congrArg₂ (fun w s => wn w s o i) hw hs

/-- At a first tile the cache ends at the demodulated weight of the point's sample. -/
theorem cache_first_tile (c : Dev nD) (t : Fin cfg0.N) (h0 : t.val % 4 = 0) :
    (outsAt0 m c t.val t.isLt).2 = demod m c (sample t) := by
  refine (congrArg Prod.snd (outsAt0_A m c t h0)).trans ?_
  dsimp only
  refine (cache_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
  exact fresh_cache m c t

/-- After point `n` the cache holds the demodulated weight of sample `n / 4`: recomputed at a first tile, kept at
    the others. -/
theorem cache_at (c : Dev nD) : ∀ (n : ℕ) (hn : n < cfg0.N) (b : Fin 16), b.val = n / 4 →
    (outsAt0 m c n hn).2 = demod m c b
  | 0, hn, b, hb => by
    have hs : sample ⟨0, hn⟩ = b := Fin.ext (by show 0 / 4 = b.val; omega)
    exact (cache_first_tile m c ⟨0, hn⟩ rfl).trans (congrArg (demod m c) hs)
  | n + 1, hn, b, hb => by
    by_cases h0 : (n + 1) % 4 = 0
    · have hs : sample ⟨n + 1, hn⟩ = b := Fin.ext (by show (n + 1) / 4 = b.val; omega)
      exact (cache_first_tile m c ⟨n + 1, hn⟩ h0).trans (congrArg (demod m c) hs)
    · have kept : ∀ (k : ℕ) (hk : k < cfg0.N), k = n → (outsAt0 m c k hk).2 = demod m c b := by
        rintro k hk rfl
        exact cache_at c k hk b (by omega)
      refine (congrArg Prod.snd (outsAt0_B m c ⟨n + 1, hn⟩ h0)).trans ?_
      dsimp only
      unfold sout0_B_0
      exact kept _ _ (by omega)

/-- After point `t` the output tile is the second payload of the signal tile and the demodulated weight of the
    point's sample. -/
theorem tile_after (c : Dev nD) (t : Fin cfg0.N) :
    (outsAt0 m c t.val t.isLt).1 = k0_pay2 (F := Ideal) (iblk m c 2 t) (demod m c (sample t)) := by
  by_cases h0 : t.val % 4 = 0
  · refine (congrArg Prod.fst (outsAt0_A m c t h0)).trans ?_
    dsimp only
    refine (out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    exact congrArg (k0_pay2 (F := Ideal) (iblk m c 2 t)) (fresh_cache m c t)
  · refine (congrArg Prod.fst (outsAt0_B m c t h0)).trans ?_
    dsimp only
    refine (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    exact congrArg (k0_pay2 (F := Ideal) (iblk m c 2 t))
      (cache_at m c (t.val - 1) _ (sample t) (by show t.val / 4 = (t.val - 1) / 4; omega))

/-- So each entry of the output tile after point `t` is the specification's entry at the point's sample, the entry's
    output feature, and the entry's position inside the point's tile. -/
theorem tile_entry (c : Dev nD) (t : Fin cfg0.N) (y : S1x1024x1024.Idx) :
    (outsAt0 m c t.val t.isLt).1 y
      = conv (m ((c : Thread nD τ).loc main_arg2)) (m ((c : Thread nD τ).loc main_arg1)) (V m c main_v2)
          (ix3 (sample t) (y 1) (position t (y 2))) := by
  obtain ⟨o, l, rfl⟩ : ∃ (o l : Fin 1024), y = ix3 (0 : Fin 1) o l := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  rw [tile_after]
  refine (Body.pay2_apply (iblk m c 2 t) (demod m c (sample t)) o l).trans ?_
  refine Eq.trans ?_ (conv_ix3 _ _ _ (sample t) o (position t l)).symm
  unfold convAt
  refine Finset.sum_congr rfl fun k _ => ?_
  exact congrArg (demod m c (sample t) (ix2 o k) * ·) (signal_tile m c t k l)

end Cert.ModConv.Frame

end
-- ==== Proof.Final.lean ====
/-
  The kernel's run, read as a value: its result is the recast of the specification of the recast signal.

  Every grid point writes its output tile back, and the 64 tiles — sample `t / 4`, positions of tile `t % 4` —
  partition the 16 × 1024 × 4096 result array: the entry (b, o, l) lies in the tile of point `4 b + l / 1024`.  Each
  written tile is the specification read under the tile, so after the last point the array is the specification.
  The one host operation after the region recasts that array row-major as 16 × 4096 × 1024.
-/
import proofs.«129304_j39444979646803_2_alg».proof.Proof.Invariant

set_option maxRecDepth 16384

noncomputable section

open Idealize.ShloMosaic Idealize.ShloMosaic.TcCoe Idealize.SL.Sem Idealize.ShloMosaic.ValueIdx
open Idealize.ShloMosaic.Pipeline (Dat)

namespace Cert.ModConv.Frame

open Cert.KernelIdeal Cert.KernelIdeal.Gen Cert.ModConv

variable (m : (ℓ : Loc nD τ sig) → Buf (Elt Ideal) ℓ) (ρ : Dev nD → PrngReg)

/-- The specification of the arguments on core `c`, over the signal array as the region finds it. -/
abbrev product (c : Dev nD) : S16x1024x4096.Idx → EReal :=
  conv (m ((c : Thread nD τ).loc main_arg2)) (m ((c : Thread nD τ).loc main_arg1)) (V m c main_v2)

/-- What point `t` writes back is the specification read under the point's tile. -/
theorem written_tile (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  funext j
  rw [View.read_apply]
  show (outsAt0 m c t.val t.isLt).1 j = product m c (((cfg0.win 3).blk t).view.emb j)
  rw [result_tile_emb t j]
  exact tile_entry m c t j

/-- An entry of the result array is in point `t`'s tile iff each coordinate is in the tile's range on its axis. -/
theorem mem_tile (t : Fin cfg0.N) (i : S16x1024x4096.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v3).slice (win0_3.rect t)).set ↔ _
  rw [View.set_slice_whole, Rect.mem_set_unit]
  exact Iff.rfl

/-- The tiles cover the result array: entry (b, o, l) lies in the tile of point `4 b + l / 1024`. -/
theorem tiles_cover (i : S16x1024x4096.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 4096 := (i 2).isLt
  have hN : cfg0.N = 64 := N_0
  let t : Fin cfg0.N := ⟨(i 0).val * 4 + (i 2).val / 1024, by omega⟩
  obtain ⟨-, -, -, -, -, -, -, -, e0, e1, e2⟩ := tile_index t
  have ht : t.val = (i 0).val * 4 + (i 2).val / 1024 := rfl
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- After the last point the result array of the region is the specification. -/
theorem region_result (c : Dev nD) : (dats m 0 c).arrAt 3 cfg0.N = product m c :=
  (dats m 0 c).arrAt_eq_of_cover 3 (product m c) (fun t _ => written_tile m c t) tiles_cover

/-- The program's result: the recast of the specification of the recast signal argument. -/
abbrev result (c : Dev nD) : S16x4096x1024.Idx → EReal :=
  shapeCast S16x4096x1024
    (conv (m ((c : Thread nD τ).loc main_arg2)) (m ((c : Thread nD τ).loc main_arg1))
      (shapeCast S16x1024x4096 (m ((c : Thread nD τ).loc main_arg0)) shapeCasts_S16x4096x1024_S16x1024x4096))
    shapeCasts_S16x1024x4096_S16x4096x1024

/-- The host operation after the region recasts the region's result. -/
theorem tail_result (c : Dev nD) :
    Pipeline.afterTail₀ cfgs (dats m) 0 (V0 m) [hostOps1] c main_v4 = result m c := by
  unfold Pipeline.afterTail₀
  show StableHlo.after hostOps1 _ (Proc.devRef .tc main_v4) = _
  after_results
  rw [Pipeline.withArrays_arr spec0 launch0.win.arr_inj c _ _ 3, region_result]
  unfold product
  rw [entry_signal]
  rfl

/-- The run, read: every weakly fair execution ends with the result buffer at `result` and the arguments as
    launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ModConv.Frame

end
-- ==== Proof.RefSide.lean ====
/-
  The reference program, read one element at a time, is the specification.

  The reference scales the weight by 2⁻⁵, replicates it over the 16 samples, multiplies by the sample's style
  entry of the input feature (the modulated weight), sums the squares along the input feature, adds ε, takes the
  reciprocal root, multiplies the modulated weight by it (the demodulated weight) and contracts with the signal
  recast as 16 × 1024 × 4096.  Each layout operation reads its operand at an index computed from the literal
  shapes; at explicit coordinates those indices are the coordinates themselves, so every stage is, element by
  element, the specification's term with the operations in the same order.
-/
import proofs.«129304_j39444979646803_2_alg».proof.Proof.Gen.ReferenceIdeal.Run
import proofs.«129304_j39444979646803_2_alg».proof.Proof.Gen.ReferenceIdeal.Read
import proofs.«129304_j39444979646803_2_alg».proof.Proof.Spec
import Idealize.ShloMosaic.Lib.ValueIdx
import Idealize.ShloMosaic.Lib.Pipeline.Value
import Idealize.ShloMosaic.PureOps.Ideal.Laws

noncomputable section

namespace Cert.ModConv.Ref

open Cert.ReferenceIdeal Cert.ReferenceIdeal.Gen Cert.ReferenceIdeal.Read
open Idealize.ShloMosaic Idealize.ShloMosaic.ValueIdx

/-- The weight's index behind the replicated, scaled, recast weight at sample `b`, output `o`, input `i`:
    row-major position `o · 1024 + i` of 1 × 1024 × 1024 is coordinates `(0, o, i, 0)` of 1 × 1024 × 1024 × 1. -/
theorem idx_weight (b : Fin 16) (o i : Fin 1024) :
    idx_main_v0 (idx_main_v4 (ix3 b o i)) = ix4 (0 : Fin 1) o i (0 : Fin 1) :=
  funext fun a => Fin.ext (by
    have ho : o.val < 1024 := o.isLt
    have hi : i.val < 1024 := i.isLt
    match a with
    | ⟨0, _⟩ => rfl
    | ⟨1, _⟩ => show ((0 * 1024 + o.val) * 1024 + i.val) / 1024 % 1024 = o.val; omega
    | ⟨2, _⟩ => show ((0 * 1024 + o.val) * 1024 + i.val) / 1 % 1024 = i.val; omega
    | ⟨3, _⟩ => rfl)

/-- The style's index behind the twice-replicated style at the same place: sample `b`, input feature `i`. -/
theorem idx_style (b : Fin 16) (o i : Fin 1024) :
    idx_main_v3 (idx_main_v5 (ix3 b o i)) = ix2 b i :=
  funext fun a => Fin.ext (by
    match a with
    | ⟨0, _⟩ => rfl
    | ⟨1, _⟩ => rfl)

/-- The reference's modulated weight is the specification's. -/
theorem v6_at (x1 : (⟨S16x1024, .f32⟩ : BufTy).Contents (Elt Ideal)) (x2 : (⟨S1x1024x1024x1, .f32⟩ : BufTy).Contents (Elt Ideal)) (b : Fin 16) (o i : Fin 1024) :
    val_main_v6 (F := Ideal) x1 x2 (ix3 b o i) = wmod (wmat x2) (srow x1 b) o i := by
  rw [val_main_v6_apply, val_main_v4_apply, val_main_v2_apply, val_main_v1_apply, val_main_cst_apply,
    val_main_v0_apply, val_main_v5_apply, val_main_v3_apply, idx_weight, idx_style]
  rfl

/-- The reference's row sum of squares is the specification's: the initial value is the word of zero, and the
    summands are the squares of the modulated weight in the same order. -/
theorem v8_at (x1 : (⟨S16x1024, .f32⟩ : BufTy).Contents (Elt Ideal)) (x2 : (⟨S1x1024x1024x1, .f32⟩ : BufTy).Contents (Elt Ideal)) (b : Fin 16) (o : Fin 1024) :
    val_main_v8 (F := Ideal) x1 x2 (ix2 b o) = sumsq (wmat x2) (srow x1 b) o := by
  rw [val_main_v8_apply, val_main_cst_0_apply]
  show Ideal.ofBits .f32 0x00000000#32 + _ = _
  rw [Ideal.ofBits_zero_f32, zero_add]
  unfold sumsq
  refine Finset.sum_congr rfl fun k _ => ?_
  have e : idx_main_v8 (ix2 b o) k = ix3 b o k :=
    funext fun a => Fin.ext (by
      match a with
      | ⟨0, _⟩ => rfl
      | ⟨1, _⟩ => rfl
      | ⟨2, _⟩ => rfl)
  rw [e, val_main_v7_apply, v6_at]
  rfl

/-- The reference's demodulated weight is the specification's. -/
theorem v14_at (x1 : (⟨S16x1024, .f32⟩ : BufTy).Contents (Elt Ideal)) (x2 : (⟨S1x1024x1024x1, .f32⟩ : BufTy).Contents (Elt Ideal)) (b : Fin 16) (o i : Fin 1024) :
    val_main_v14 (F := Ideal) x1 x2 (ix3 b o i) = wn (wmat x2) (srow x1 b) o i := by
  have e : idx_main_v9 (idx_main_v13 (ix3 b o i)) = ix2 b o :=
    funext fun a => Fin.ext (by
      match a with
      | ⟨0, _⟩ => rfl
      | ⟨1, _⟩ => rfl)
  rw [val_main_v14_apply, v6_at, val_main_v13_apply, val_main_v12_apply, val_main_v11_apply, val_main_v9_apply,
    val_main_v10_apply, val_main_cst_1_apply, e, v8_at]
  rfl

/-- The reference's batched product is the specification of the recast signal. -/
theorem v16_eq (x0 : (⟨S16x4096x1024, .f32⟩ : BufTy).Contents (Elt Ideal)) (x1 : (⟨S16x1024, .f32⟩ : BufTy).Contents (Elt Ideal)) (x2 : (⟨S1x1024x1024x1, .f32⟩ : BufTy).Contents (Elt Ideal)) :
    val_main_v16 (F := Ideal) x0 x1 x2 = Cert.ModConv.conv x2 x1 (val_main_v15 (F := Ideal) x0) := by
  funext j
  obtain ⟨b, o, l, rfl⟩ : ∃ (b : Fin 16) (o : Fin 1024) (l : Fin 4096), j = ix3 b o l :=
    ⟨j 0, j 1, j 2, eq_ix3 j⟩
  rw [val_main_v16_apply, conv_ix3]
  unfold convAt
  refine Finset.sum_congr rfl fun k _ => ?_
  have el : lidx_main_v16 (ix3 b o l) k = ix3 b o k :=
    funext fun a => Fin.ext (by
      match a with
      | ⟨0, _⟩ => rfl
      | ⟨1, _⟩ => rfl
      | ⟨2, _⟩ => rfl)
  have er : ridx_main_v16 (ix3 b o l) k = ix3 b k l :=
    funext fun a => Fin.ext (by
      match a with
      | ⟨0, _⟩ => rfl
      | ⟨1, _⟩ => rfl
      | ⟨2, _⟩ => rfl)
  rw [el, er, v14_at]

/-- So the reference's result is the recast of the specification of the recast signal. -/
theorem result_eq (x0 : (⟨S16x4096x1024, .f32⟩ : BufTy).Contents (Elt Ideal)) (x1 : (⟨S16x1024, .f32⟩ : BufTy).Contents (Elt Ideal)) (x2 : (⟨S1x1024x1024x1, .f32⟩ : BufTy).Contents (Elt Ideal)) :
    val_main_v17 (F := Ideal) x0 x1 x2
      = shapeCast S16x4096x1024 (Cert.ModConv.conv x2 x1 (shapeCast S16x1024x4096 x0 shapeCasts_S16x4096x1024_S16x1024x4096)) shapeCasts_S16x1024x4096_S16x4096x1024 := by
  unfold val_main_v17
  rw [v16_eq]
  rfl

end Cert.ModConv.Ref

end
-- ==== Proof.lean ====
/-
  The kernel and its reference compute one function over the extended reals.

  Both take a signal (16 samples × 4096 positions × 1024 features, re-read row-major as 16 × 1024 × 4096), a style
  vector per sample (16 × 1024) and a weight matrix (1024 × 1024, stored 1 × 1024 × 1024 × 1).  For each sample the
  weight is scaled by 2⁻⁵ and multiplied column by column by the sample's style vector; each row of the result is
  divided by the root of its sum of squares plus a small constant (a reciprocal square root, the same function on
  both sides, with the same constant word); the demodulated weight is multiplied with the sample's 1024 × 4096 signal
  matrix; and the 16 × 1024 × 4096 result is re-read row-major as 16 × 4096 × 1024.

  The reference does this with whole-array operations.  The kernel walks a 16 × 4 grid — sample by position tile of
  1024 —, recomputes the demodulated weight at the first tile of each sample, keeps it in a buffer of its own for the
  other three, and multiplies it with the signal tile at every point.  The proof shows by induction over the grid
  points that the kept buffer always holds the demodulated weight of the current sample, so every tile written back
  is the specification under that tile; the 64 tiles partition the result.  Both sides perform the same operations
  in the same order on the same entries, so nothing is regrouped and finiteness of the inputs is never used.

  The three frames are the generated runs; the ideal pass rewrote nothing, so the kernel's idealization is its own
  text read over the extended reals.
-/
import proofs.«129304_j39444979646803_2_alg».proof.Defs
import proofs.«129304_j39444979646803_2_alg».proof.Proof.Gen.Kernel
import proofs.«129304_j39444979646803_2_alg».proof.Proof.Gen.Kernel.Skeleton
import proofs.«129304_j39444979646803_2_alg».proof.Proof.Gen.Kernel.Launch
import proofs.«129304_j39444979646803_2_alg».proof.Proof.Gen.Kernel.Points
import proofs.«129304_j39444979646803_2_alg».proof.Proof.Gen.Kernel.Frame
import proofs.«129304_j39444979646803_2_alg».proof.Proof.Gen.KernelIdeal
import proofs.«129304_j39444979646803_2_alg».proof.Proof.Gen.KernelIdeal.Skeleton
import proofs.«129304_j39444979646803_2_alg».proof.Proof.Gen.KernelIdeal.Launch
import proofs.«129304_j39444979646803_2_alg».proof.Proof.Gen.KernelIdeal.Points
import proofs.«129304_j39444979646803_2_alg».proof.Proof.Gen.KernelIdeal.Frame
import proofs.«129304_j39444979646803_2_alg».proof.Proof.Gen.ReferenceIdeal
import proofs.«129304_j39444979646803_2_alg».proof.Proof.Gen.ReferenceIdeal.Run
import proofs.«129304_j39444979646803_2_alg».proof.Proof.Gen.ReferenceIdeal.Read
import proofs.«129304_j39444979646803_2_alg».proof.Proof.Gen.Pre_finite_inputs
import proofs.«129304_j39444979646803_2_alg».proof.Proof.Final
import proofs.«129304_j39444979646803_2_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both runs end at the recast of the specification of the recast signal, of arguments that agree. -/
theorem algebraic : Cert.algebraic_KernelIdeal_ReferenceIdeal := by
  intro m ρ m' ρ' _ hagree
  refine ⟨fun c => Cert.ModConv.Frame.result m c, Cert.ModConv.Frame.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ModConv.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
